-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x8x1024 .f32) (main_arg1 : FVec F S1024 .f32) (main_arg2 : FVec F S1024 .f32) (main_arg3 : FVec F S1024x1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x8x1024 : Shape := ⟨3, ![4096, 8, 1024]⟩
abbrev S1024 : Shape := ⟨1, ![1024]⟩
abbrev S1024x1024 : Shape := ⟨2, ![1024, 1024]⟩
abbrev S32768x1024 : Shape := ⟨2, ![32768, 1024]⟩
abbrev S1x1024 : Shape := ⟨2, ![1, 1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S32768x1024, .f32⟩
  | .hbm, ⟨9, _⟩ => ⟨S32768x1024, .f32⟩
  | .hbm, ⟨10, _⟩ => ⟨S4096x8x1024, .f32⟩
  | .hbm, ⟨11, _⟩ => ⟨S4096x8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x8x1024_S32768x1024 : S4096x8x1024.ShapeCasts S32768x1024
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S4096x8x1024 : S32768x1024.ShapeCasts S4096x8x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S4096x8, .f32⟩
  | .hbm, ⟨6, _⟩ => ⟨S4096x8x1, .f32⟩
  | .hbm, ⟨7, _⟩ => ⟨S_, .f32⟩
  | .hbm, ⟨8, _⟩ => ⟨S4096x8x1, .f32⟩
  | .hbm, ⟨9, _⟩ => ⟨S4096x8x1, .f32⟩
  | .hbm, ⟨10, _⟩ => ⟨S4096x8x1024, .f32⟩
  | .hbm, ⟨11, _⟩ => ⟨S4096x8x1024, .f32⟩
  | .hbm, ⟨12, _⟩ => ⟨S4096x8x1024, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x1024, .f32⟩
  | .hbm, ⟨20, _⟩ => ⟨S4096x8x1024, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x1024, .f32⟩
  | .hbm, ⟨26, _⟩ => ⟨S4096x8x1024, .f32⟩
  | .hbm, ⟨27, _⟩ => ⟨S1x1x1024, .f32⟩
  | .hbm, ⟨28, _⟩ => ⟨S4096x8x1024, .f32⟩
  | .hbm, ⟨29, _⟩ => ⟨S4096x8x1024, .f32⟩
  | .hbm, ⟨30, _⟩ => ⟨S1x1x1024, .f32⟩
  | .hbm, ⟨31, _⟩ => ⟨S4096x8x1024, .f32⟩
  | .hbm, ⟨32, _⟩ => ⟨S4096x8x1024, .f32⟩
  | .hbm, ⟨33, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  dot_S4096x8x1024_S1024x1024_S4096x8x1024_2_0_01_1_n_n_wf : DotDims.WF S4096x8x1024 S1024x1024 S4096x8x1024 [2] [0] [0, 1] [1] [] []

variable [Facts₀]

def dot_S4096x8x1024_S1024x1024_S4096x8x1024_2_0_01_1_n_n : DotDims S4096x8x1024 S1024x1024 S4096x8x1024 where
  lhsContracting := [2]
  rhsContracting := [0]
  lhsNonContracting := [0, 1]
  rhsNonContracting := [1]
  lhsBatch := []
  rhsBatch := []
  wf := dot_S4096x8x1024_S1024x1024_S4096x8x1024_2_0_01_1_n_n_wf

class Facts : Prop extends Facts₀ where

variable [Facts]
-- ==== Proof.RowSpec.lean ====
/-
  Layer normalisation of a row followed by a dense projection, on the extended reals.

  For a row ρ of 1024 entries: the mean μ = (Σ ρ) / 1024; the centred entries ρ h − μ; the variance
  σ² = (Σ (ρ h − μ)²) / 1024; the reciprocal standard deviation (σ² + ε)^(−1/2); the normalised row
  ((ρ h − μ) · (σ² + ε)^(−1/2)) · γ h + β h for a gain γ and an offset β; and the image of the normalised row under a
  1024 × 1024 matrix K, f ↦ Σ_h (normalised h) · K h f. The row length and ε stay the float words they are written
  as (1024.0, and the single-precision float nearest 1e-6): nothing below depends on their values.

  Then the same for whole arrays: an array of 4096 × 8 rows, and the same rows laid out flat as 32768 rows, row
  (s, b) of the first being row 8 s + b of the second.
-/
import Idealize.ShloMosaic.PureOps.Ideal
import Idealize.ShloMosaic.Lib.ValueIdx

noncomputable section

open scoped BigOperators

namespace Cert.RowSpec

open Idealize.ShloMosaic Idealize.ShloMosaic.ValueIdx

/-- A row of 1024 extended reals. -/
abbrev Row : Type := Fin 1024 → EReal

/-- The row length, as the float `1024.0`. -/
abbrev len : EReal := Ideal.ofBits .f32 0x44800000#32
/-- The stabiliser added to the variance: the single-precision float nearest `1e-6`. -/
abbrev eps : EReal := Ideal.ofBits .f32 0x358637BD#32

/-- The mean of a row. -/
def mean (ρ : Row) : EReal := Ideal.div (∑ k, ρ k) len
/-- A row's entries less its mean. -/
def centred (ρ : Row) (h : Fin 1024) : EReal := ρ h - mean ρ
/-- The mean of the squared centred entries. -/
def variance (ρ : Row) : EReal := Ideal.div (∑ k, centred ρ k * centred ρ k) len
/-- One over the square root of the stabilised variance. -/
def rstd (ρ : Row) : EReal := Ideal.rsqrt (variance ρ + eps)
/-- The normalised row, scaled by the gain and shifted by the offset. -/
def normalised (ρ γ β : Row) (h : Fin 1024) : EReal := centred ρ h * rstd ρ * γ h + β h
/-- The normalised row times the matrix. -/
def projected (ρ γ β : Row) (K : Fin 1024 → Fin 1024 → EReal) (f : Fin 1024) : EReal := ∑ h, normalised ρ γ β h * K h f

/-! ## Arrays of rows -/

abbrev A3 : Shape := ⟨3, ![4096, 8, 1024]⟩
abbrev A2 : Shape := ⟨2, ![32768, 1024]⟩
abbrev V1 : Shape := ⟨1, ![1024]⟩
abbrev R1 : Shape := ⟨2, ![1, 1024]⟩
abbrev M2 : Shape := ⟨2, ![1024, 1024]⟩

/-- Row `(s, b)` of a `[4096, 8, 1024]` array. -/
def row3 (x : A3.Idx → EReal) (s : Fin 4096) (b : Fin 8) : Row := fun k => x (ix3 s b k)
/-- Row `r` of a `[32768, 1024]` array. -/
def row2 (X : A2.Idx → EReal) (r : Fin 32768) : Row := fun k => X (ix2 r k)
/-- A `[1024]` vector as a row. -/
def vec1 (v : V1.Idx → EReal) : Row := fun k => v (ix1 k)
/-- The one row of a `[1, 1024]` array. -/
def row1 (g : R1.Idx → EReal) : Row := fun k => g (ix2 (0 : Fin 1) k)
/-- A `[1024, 1024]` array by rows: `mat2 K h` is row `h`. -/
def mat2 (K : M2.Idx → EReal) : Fin 1024 → Fin 1024 → EReal := fun h f => K (ix2 h f)

/-- Every row of a `[4096, 8, 1024]` array normalised. -/
def lnArr (x : A3.Idx → EReal) (γ β : V1.Idx → EReal) : A3.Idx → EReal :=
  fun i => normalised (row3 x (i 0) (i 1)) (vec1 γ) (vec1 β) (i 2)
/-- Every normalised row projected. -/
def outArr (x : A3.Idx → EReal) (γ β : V1.Idx → EReal) (K : M2.Idx → EReal) : A3.Idx → EReal :=
  fun i => projected (row3 x (i 0) (i 1)) (vec1 γ) (vec1 β) (mat2 K) (i 2)

/-- The same over the flat layout, gain and offset given as one-row arrays. -/
def lnFlat (X : A2.Idx → EReal) (g b : R1.Idx → EReal) : A2.Idx → EReal :=
  fun i => normalised (row2 X (i 0)) (row1 g) (row1 b) (i 1)
def outFlat (X : A2.Idx → EReal) (g b : R1.Idx → EReal) (K : M2.Idx → EReal) : A2.Idx → EReal :=
  fun i => projected (row2 X (i 0)) (row1 g) (row1 b) (mat2 K) (i 1)

end Cert.RowSpec

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.BodyRows.lean ====
/-
  The kernel body's two stored values, read at one entry `(p, q)` of the 1024 × 1024 block.

  The first store is the layer normalisation of the block's rows: row `p` is summed along its lanes and divided by 1024
  (its mean, kept as a column and repeated along the row), subtracted, squared, summed and divided again (the variance),
  stabilised, sent through the reciprocal square root, and the centred row is multiplied by that, by the gain's one row
  and shifted by the offset's one row. At `(p, q)` this is the row specification `normalised` of row `p` of the block.
  The second store is the matrix product of the first with the loaded 1024 × 1024 block into a zero accumulator: at
  `(p, f)` the sum over the contracted coordinate `k` of entry `(p, k)` of the first times entry `(k, f)` of the matrix,
  which is `projected` of row `p` (the change to a narrower float format before the product is the identity on the
  extended reals).
-/
import proofs.«131173_j1563368095882_2_alg».proof.Proof.Gen.KernelIdeal.Skeleton
import proofs.«131173_j1563368095882_2_alg».proof.Proof.RowSpec
import proofs.«131173_j1563368095882_2_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.RowSpec Cert.LibLayout

/-- The lane sum of row `p` of a block: the sum over `k` of its entries `(p, k)`. -/
theorem rowSum (v : FVec Ideal S1024x1024 .f32) (hR : S1024x1024.Reduces [1] S1024) (hφ : FKind.Formats .f32)
    (hacc : (0x00000000#32 : BitVec 32) = FKind.add.neutral .f32 hφ) (p : Fin 1024) :
    multiReduction .add [1] S1024 v 0x00000000#32 hR hφ hacc (ix1 p) = ∑ k : Fin 1024, v (ix2 p k) :=
  (Ideal.multiReduction_add_single v 0x00000000#32 hR hφ hacc (ix1 p)).trans
    (Finset.sum_congr rfl fun k _ => congrArg v (funext fun a => Fin.ext (by match a with | ⟨0, _⟩ => rfl | ⟨1, _⟩ => rfl)))

/-- The lane sums kept as a column and divided by the row length: at `(p, 0)` the quotient of row `p`'s sum. -/
theorem colMean (v : FVec Ideal S1024x1024 .f32) (hR : S1024x1024.Reduces [1] S1024) (hφ : FKind.Formats .f32)
    (hacc : (0x00000000#32 : BitVec 32) = FKind.add.neutral .f32 hφ) (hC : S1024.ShapeCasts S1024x1) (p : Fin 1024) (u : Fin 1) :
    divf (shapeCast S1024x1 (multiReduction .add [1] S1024 v 0x00000000#32 hR hφ hacc) hC)
        (broadcast S1024x1 (Scalar.ofBits (F := Ideal) .f32 0x44800000#32)) (ix2 p u)
      = Ideal.div (∑ k : Fin 1024, v (ix2 p k)) len :=
  congrArg (fun z => Ideal.div z len) ((shapeCast_a_a1_apply _ hC p u).trans (rowSum v hR hφ hacc p))

/-- A block less its rows' means, at `(p, q)`: the centred entry `q` of row `p`. -/
theorem centredBlock (v : FVec Ideal S1024x1024 .f32) (hR : S1024x1024.Reduces [1] S1024) (hφ : FKind.Formats .f32)
    (hacc : (0x00000000#32 : BitVec 32) = FKind.add.neutral .f32 hφ) (hC : S1024.ShapeCasts S1024x1)
    (hB : S1024x1.Broadcasts S1024x1024) (p q : Fin 1024) :
    subf v (broadcastTo S1024x1024 (divf (shapeCast S1024x1 (multiReduction .add [1] S1024 v 0x00000000#32 hR hφ hacc) hC)
        (broadcast S1024x1 (Scalar.ofBits (F := Ideal) .f32 0x44800000#32))) hB) (ix2 p q)
      = centred (mat2 v p) q :=
  congrArg (fun z => v (ix2 p q) - z) ((broadcastTo_a1_ab_apply _ hB p q).trans (colMean v hR hφ hacc hC p 0))

/-- The reciprocal standard deviation of the rows of a block `w` of centred entries, kept as a column: at `(p, 0)` one over
    the root of the stabilised mean of row `p`'s squares. -/
theorem rstdCol (w : FVec Ideal S1024x1024 .f32) (hR : S1024x1024.Reduces [1] S1024) (hφ : FKind.Formats .f32)
    (hacc : (0x00000000#32 : BitVec 32) = FKind.add.neutral .f32 hφ) (hC : S1024.ShapeCasts S1024x1) (p : Fin 1024) (u : Fin 1) :
    rsqrt (addf (divf (shapeCast S1024x1 (multiReduction .add [1] S1024 (mulf w w) 0x00000000#32 hR hφ hacc) hC)
        (broadcast S1024x1 (Scalar.ofBits (F := Ideal) .f32 0x44800000#32)))
        (broadcast S1024x1 (Scalar.ofBits (F := Ideal) .f32 0x358637BD#32))) (ix2 p u)
      = Ideal.rsqrt (Ideal.div (∑ k : Fin 1024, w (ix2 p k) * w (ix2 p k)) len + eps) :=
  congrArg (fun z => Ideal.rsqrt (z + eps)) (colMean (mulf w w) hR hφ hacc hC p u)

/-- THE FIRST STORE at `(p, q)`: row `p` of the block normalised, by the gain's and the offset's one row. -/
theorem pay1_apply (x0 : Vec Ideal S1024x1024 .f32) (x1 x2 : Vec Ideal S1x1024 .f32) (p q : Fin 1024) :
    k0_pay1 (F := Ideal) x0 x1 x2 (ix2 p q) = normalised (mat2 x0 p) (row1 x1) (row1 x2) q := by
  unfold k0_pay1
  simp only [shapeCast_self]
  rw [addf_apply, mulf_apply, mulf_apply]
  unfold normalised
  refine congrArg₂ (· + ·) (congrArg₂ (· * ·) (congrArg₂ (· * ·) ?_ ?_) ?_) ?_
  · exact centredBlock x0 _ _ _ _ _ p q
  · refine (broadcastTo_a1_ab_apply _ _ p q).trans ((rstdCol _ _ _ _ _ p 0).trans ?_)
    refine congrArg (fun z => Ideal.rsqrt (Ideal.div z len + eps)) (Finset.sum_congr rfl fun k _ => ?_)
    exact congrArg₂ (· * ·) (centredBlock x0 _ _ _ _ _ p k) (centredBlock x0 _ _ _ _ _ p k)
  · exact broadcastTo_1b_ab_apply _ _ p q
  · exact broadcastTo_1b_ab_apply _ _ p q

/-! ## The matrix product -/

/-- The product's dimension numbers: the left operand's second axis against the right operand's first. -/
abbrev D := dot_S1024x1024_S1024x1024_S1024x1024_1_0_0_1_n_n

theorem lhs0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs1 (i : S1024x1024.Idx) (q : D.contr.Idx) : (D.lhsIdx i q 1).val = (q ⟨0, by decide⟩).val :=
  D.lhsIdx_val_of_single rfl i q
theorem rhs0 (i : S1024x1024.Idx) (q : D.contr.Idx) : (D.rhsIdx i q 0).val = (q ⟨0, by decide⟩).val :=
  D.rhsIdx_val_of_single rfl i q
theorem rhs1 (i : S1024x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- A product into the zero accumulator, at `(p, f)`: the sum over the contracted coordinate `k` of the left operand at
    `(p, k)` times the right at `(k, f)`. -/
theorem matmul_zero_apply (l : FVec Ideal S1024x1024 .bf16) (r : FVec Ideal S1024x1024 .bf16) (p f : Fin 1024) :
    matmul D none l r (constant (F := Ideal) S1024x1024 .f32 0x00000000#32) (ix2 p f) = ∑ k : Fin 1024, l (ix2 p k) * r (ix2 k f) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p f) ((contrEquiv1 D 1024 rfl rfl).symm k) = ix2 p k := funext fun a => Fin.ext (by
    match a with
    | ⟨0, _⟩ => exact lhs0 _ _
    | ⟨1, _⟩ => exact (lhs1 _ _).trans hk)
  have er : D.rhsIdx (ix2 p f) ((contrEquiv1 D 1024 rfl rfl).symm k) = ix2 k f := funext fun a => Fin.ext (by
    match a with
    | ⟨0, _⟩ => exact (rhs0 _ _).trans hk
    | ⟨1, _⟩ => exact rhs1 _ _)
  rw [el, er]

/-- THE SECOND STORE at `(p, f)`: row `p` of the block normalised and multiplied into column `f` of the matrix block. -/
theorem pay2_apply (x0 : Vec Ideal S1024x1024 .f32) (x1 x2 : Vec Ideal S1x1024 .f32) (x3 : Vec Ideal S1024x1024 .bf16) (p f : Fin 1024) :
    k0_pay2 (F := Ideal) x0 x1 x2 x3 (ix2 p f) = projected (mat2 x0 p) (row1 x1) (row1 x2) (mat2 x3) f := by
  unfold k0_pay2
  simp only [shapeCast_self]
  refine (matmul_zero_apply _ _ p f).trans ?_
  exact Finset.sum_congr rfl fun k _ => congrArg (· * x3 (ix2 k f)) (pay1_apply x0 x1 x2 p k)

end Cert.KernelIdeal.Body

end
-- ==== Proof.KernelArrays.lean ====
/-
  The two arrays the kernel's grid writes, as whole-array functions of the arrays it reads.

  The grid has 32 points. At point `t` the first input's block is rows `1024 t … 1024 t + 1023` of the flat
  `[32768, 1024]` array; the gain's, the offset's and the matrix's blocks are those whole arrays at every point; each output's
  block is again rows `1024 t … 1024 t + 1023` of its array. The body's stores at entry `(p, q)` of the block are the row
  specification of block row `p`, which is array row `1024 t + p`: so what point `t` writes back is block `t` of ONE
  function of the array index (`lnFlat`, `outFlat`). Array row `r` lies in the block of point `r / 1024`, so the blocks cover each
  output array, and each ends holding that function.
-/
import proofs.«131173_j1563368095882_2_alg».proof.Proof.Gen.KernelIdeal.Frame
import proofs.«131173_j1563368095882_2_alg».proof.Proof.BodyRows
import Idealize.ShloMosaic.Lib.Pipeline.Value
import Idealize.ShloMosaic.Lib.Tactic

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Cert.RowSpec Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the first input and both outputs move down one block of rows per
    point, the other three inputs stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks against the arrays -/

/-- Entry `(p, k)` of the first input's block at point `t` is entry `(1024 t + p, k)` of the flat array. -/
theorem iblk0_apply (c : Dev nD) (t : Fin cfg0.N) (p k : Fin 1024) (r : Fin 32768) (hr : r.val = t.val * 1024 + p.val) :
    (iblk m c 0 t : Vec Ideal S1024x1024 .f32) (ix2 p k) = (V m c main_v0 : S32768x1024.Idx → Elt Ideal .f32) (ix2 r k) := by
  obtain ⟨e0, e1, -⟩ := idx_facts t
  unfold iblk
  rw [View.read_apply]
  refine congrArg (V m c main_v0 : S32768x1024.Idx → Elt Ideal .f32) (funext fun a => Fin.ext ?_)
  match a with
  | ⟨0, _⟩ => show win0_0.index t 0 * 1024 + 1 * p.val = r.val; rw [e0, hr]; omega
  | ⟨1, _⟩ => show win0_0.index t 1 * 1024 + 1 * k.val = k.val; rw [e1]; omega

/-- The gain's block is the gain's one row, at every point. -/
theorem iblk1_apply (c : Dev nD) (t : Fin cfg0.N) (k : Fin 1024) :
    (iblk m c 1 t : Vec Ideal S1x1024 .f32) (ix2 (0 : Fin 1) k) = (V m c main_v1 : S1x1024.Idx → Elt Ideal .f32) (ix2 (0 : Fin 1) k) := by
  obtain ⟨-, -, e2, e3, -⟩ := idx_facts t
  unfold iblk
  rw [View.read_apply]
  refine congrArg (V m c main_v1 : S1x1024.Idx → Elt Ideal .f32) (funext fun a => Fin.ext ?_)
  match a with
  | ⟨0, _⟩ => show win0_1.index t 0 * 1 + 1 * 0 = 0; rw [e2]
  | ⟨1, _⟩ => show win0_1.index t 1 * 1024 + 1 * k.val = k.val; rw [e3]; omega

/-- The offset's block likewise. -/
theorem iblk2_apply (c : Dev nD) (t : Fin cfg0.N) (k : Fin 1024) :
    (iblk m c 2 t : Vec Ideal S1x1024 .f32) (ix2 (0 : Fin 1) k) = (V m c main_v2 : S1x1024.Idx → Elt Ideal .f32) (ix2 (0 : Fin 1) k) := by
  obtain ⟨-, -, -, -, e4, e5, -⟩ := idx_facts t
  unfold iblk
  rw [View.read_apply]
  refine congrArg (V m c main_v2 : S1x1024.Idx → Elt Ideal .f32) (funext fun a => Fin.ext ?_)
  match a with
  | ⟨0, _⟩ => show win0_2.index t 0 * 1 + 1 * 0 = 0; rw [e4]
  | ⟨1, _⟩ => show win0_2.index t 1 * 1024 + 1 * k.val = k.val; rw [e5]; omega

/-- The matrix's block is the whole matrix, at every point. -/
theorem iblk3_apply (c : Dev nD) (t : Fin cfg0.N) (h f : Fin 1024) :
    (iblk m c 3 t : Vec Ideal S1024x1024 .bf16) (ix2 h f) = (V m c main_v3 : S1024x1024.Idx → Elt Ideal .bf16) (ix2 h f) := by
  obtain ⟨-, -, -, -, -, -, e6, e7, -⟩ := idx_facts t
  unfold iblk
  rw [View.read_apply]
  refine congrArg (V m c main_v3 : S1024x1024.Idx → Elt Ideal .bf16) (funext fun a => Fin.ext ?_)
  match a with
  | ⟨0, _⟩ => show win0_3.index t 0 * 1024 + 1 * h.val = h.val; rw [e6]; omega
  | ⟨1, _⟩ => show win0_3.index t 1 * 1024 + 1 * f.val = f.val; rw [e7]; omega

theorem blockRow (c : Dev nD) (t : Fin cfg0.N) (p : Fin 1024) (r : Fin 32768) (hr : r.val = t.val * 1024 + p.val) :
    mat2 (iblk m c 0 t) p = row2 (V m c main_v0) r := funext fun k => iblk0_apply m c t p k r hr
theorem gainRow (c : Dev nD) (t : Fin cfg0.N) : row1 (iblk m c 1 t) = row1 (V m c main_v1) := funext fun k => iblk1_apply m c t k
theorem offsRow (c : Dev nD) (t : Fin cfg0.N) : row1 (iblk m c 2 t) = row1 (V m c main_v2) := funext fun k => iblk2_apply m c t k
theorem matBlock (c : Dev nD) (t : Fin cfg0.N) : mat2 (iblk m c 3 t) = mat2 (V m c main_v3) :=
  funext fun h => funext fun f => iblk3_apply m c t h f

/-! ## What a point stores, as one function of the array index -/

/-- The body's first store at block entry `j`, at a point whose block puts `j` at array index `i`. -/
theorem point5 (c : Dev nD) (t : Fin cfg0.N) (j : S1024x1024.Idx) (i : S32768x1024.Idx)
    (hi0 : (i 0).val = t.val * 1024 + (j 0).val) (hi1 : (i 1).val = (j 1).val) :
    k0_pay1 (F := Ideal) (iblk m c 0 t) (iblk m c 1 t) (iblk m c 2 t) j
      = lnFlat (V m c main_v0) (V m c main_v1) (V m c main_v2) i := by
  obtain ⟨p, q, rfl⟩ : ∃ (p q : Fin 1024), j = ix2 p q := ⟨j 0, j 1, eq_ix2 j⟩
  obtain ⟨r, q', rfl⟩ : ∃ (r : Fin 32768) (q' : Fin 1024), i = ix2 r q' := ⟨i 0, i 1, eq_ix2 i⟩
  obtain rfl : q' = q := Fin.ext hi1
  refine (pay1_apply _ _ _ p q').trans ?_
  rw [blockRow m c t p r hi0, gainRow m c t, offsRow m c t]
  rfl

/-- The body's second store likewise. -/
theorem point4 (c : Dev nD) (t : Fin cfg0.N) (j : S1024x1024.Idx) (i : S32768x1024.Idx)
    (hi0 : (i 0).val = t.val * 1024 + (j 0).val) (hi1 : (i 1).val = (j 1).val) :
    k0_pay2 (F := Ideal) (iblk m c 0 t) (iblk m c 1 t) (iblk m c 2 t) (iblk m c 3 t) j
      = outFlat (V m c main_v0) (V m c main_v1) (V m c main_v2) (V m c main_v3) i := by
  obtain ⟨p, q, rfl⟩ : ∃ (p q : Fin 1024), j = ix2 p q := ⟨j 0, j 1, eq_ix2 j⟩
  obtain ⟨r, q', rfl⟩ : ∃ (r : Fin 32768) (q' : Fin 1024), i = ix2 r q' := ⟨i 0, i 1, eq_ix2 i⟩
  obtain rfl : q' = q := Fin.ext hi1
  refine (pay2_apply _ _ _ _ p q').trans ?_
  rw [blockRow m c t p r hi0, gainRow m c t, offsRow m c t, matBlock m c t]
  rfl

/-- WHAT POINT `t` WRITES BACK to the normalised rows' array is block `t` of `lnFlat` of the arrays the region reads. -/
theorem flushed5_eq (c : Dev nD) (t : Fin cfg0.N) :
    (dats m 0 c).flushed 5 t = ((cfg0.win 5).blk t).view.read (Elt Ideal) (lnFlat (V m c main_v0) (V m c main_v1) (V m c main_v2)) := by
  obtain ⟨-, -, -, -, -, -, -, -, -, -, e10, e11⟩ := idx_facts t
  show (cfg0.win 5).cut (grid0.coords t) ((dats m 0 c).after 5 t) = _
  rw [after0_5]
  unfold out0_5
  rw [View.canon_unit_zero hz]
  simp only [View.ld_unit_zero (S := S1024x1024) hz, View.ld_unit_zero (S := S1x1024) hz]
  funext j
  refine point5 m c t j (((cfg0.win 5).blk t).view.emb j) ?_ ?_
  · show win0_5.index t 0 * 1024 + 1 * (j 0).val = t.val * 1024 + (j 0).val; rw [e10]; omega
  · show win0_5.index t 1 * 1024 + 1 * (j 1).val = (j 1).val; rw [e11]; omega

/-- WHAT POINT `t` WRITES BACK to the projected rows' array is block `t` of `outFlat`. -/
theorem flushed4_eq (c : Dev nD) (t : Fin cfg0.N) :
    (dats m 0 c).flushed 4 t = ((cfg0.win 4).blk t).view.read (Elt Ideal) (outFlat (V m c main_v0) (V m c main_v1) (V m c main_v2) (V m c main_v3)) := by
  obtain ⟨-, -, -, -, -, -, -, -, e8, e9, -⟩ := idx_facts t
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  funext j
  refine point4 m c t j (((cfg0.win 4).blk t).view.emb j) ?_ ?_
  · show win0_4.index t 0 * 1024 + 1 * (j 0).val = t.val * 1024 + (j 0).val; rw [e8]; omega
  · show win0_4.index t 1 * 1024 + 1 * (j 1).val = (j 1).val; rw [e9]; omega

/-! ## The blocks cover the arrays -/

/-- An index of the array is in point `t`'s block iff each coordinate is in the block's range on its axis. -/
theorem mem_blk5 (t : Fin cfg0.N) (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_1).slice (win0_5.rect t)).set ↔ _
  rw [View.set_slice_whole, Rect.mem_set_unit]
  exact Iff.rfl
theorem mem_blk4 (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_0).slice (win0_4.rect t)).set ↔ _
  rw [View.set_slice_whole, Rect.mem_set_unit]
  exact Iff.rfl

/-- Array row `r` is in the block of point `r / 1024`. -/
theorem cover5 (i : S32768x1024.Idx) : ∃ t : Fin cfg0.N, (cfg0.win 5).flush t = true ∧ i ∈ ((cfg0.win 5).blk t).view.set := by
  have hN : cfg0.N = 32 := N_0
  have h0 : (i 0).val < 32768 := (i 0).isLt
  have h1 : (i 1).val < 1024 := (i 1).isLt
  have ht : (i 0).val / 1024 < cfg0.N := by rw [hN]; omega
  obtain ⟨-, -, -, -, -, -, -, -, -, -, e10, e11⟩ := idx_facts ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e10]; show (i 0).val / 1024 * 1024 ≤ (i 0).val ∧ (i 0).val < (i 0).val / 1024 * 1024 + 1024; omega
  | ⟨1, _⟩ =>
    show win0_5.index ⟨(i 0).val / 1024, ht⟩ (1 : Fin 2) * 1024 ≤ (i 1).val ∧ (i 1).val < win0_5.index ⟨(i 0).val / 1024, ht⟩ (1 : Fin 2) * 1024 + 1024
    rw [e11]; omega
theorem cover4 (i : S32768x1024.Idx) : ∃ t : Fin cfg0.N, (cfg0.win 4).flush t = true ∧ i ∈ ((cfg0.win 4).blk t).view.set := by
  have hN : cfg0.N = 32 := N_0
  have h0 : (i 0).val < 32768 := (i 0).isLt
  have h1 : (i 1).val < 1024 := (i 1).isLt
  have ht : (i 0).val / 1024 < cfg0.N := by rw [hN]; omega
  obtain ⟨-, -, -, -, -, -, -, -, e8, e9, -⟩ := idx_facts ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e8]; show (i 0).val / 1024 * 1024 ≤ (i 0).val ∧ (i 0).val < (i 0).val / 1024 * 1024 + 1024; omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    rw [e9]; omega

/-! ## The arrays after the grid -/

/-- The normalised rows' array after the last point. -/
theorem final5 (c : Dev nD) : (dats m 0 c).arrAt 5 cfg0.N = lnFlat (V m c main_v0) (V m c main_v1) (V m c main_v2) :=
  (dats m 0 c).arrAt_eq_of_cover 5 _ (fun t _ => flushed5_eq m c t) cover5
/-- The projected rows' array after the last point. -/
theorem final4 (c : Dev nD) : (dats m 0 c).arrAt 4 cfg0.N = outFlat (V m c main_v0) (V m c main_v1) (V m c main_v2) (V m c main_v3) :=
  (dats m 0 c).arrAt_eq_of_cover 4 _ (fun t _ => flushed4_eq m c t) cover4

end Cert.KernelIdeal.Arrays

end
-- ==== Proof.KernelRun.lean ====
/-
  The kernel program's run, with both results as functions of the four arguments.

  Before the grid the program regroups the first argument's two leading axes into one (row `(s, b)` becomes row `8 s + b`),
  views the gain and the offset as one-row arrays, and changes the matrix's float format (the identity on the extended
  reals). So the flat array's row `8 s + b` is the argument's row `(s, b)`, the one rows are the two vectors, and the
  matrix is the matrix. After the grid the two flat outputs are split back into `[4096, 8, 1024]`: entry `(s, b, h)` of a
  result is entry `(8 s + b, h)` of the flat array, which is the row specification of the argument's row `(s, b)`.
-/
import proofs.«131173_j1563368095882_2_alg».proof.Proof.KernelArrays
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.RowSpec Cert.LibLayout Cert.KernelIdeal.Arrays
open Idealize.ShloMosaic.Pipeline (Dat)

variable (m : (ℓ : Loc nD τ sig) → Buf (Elt Ideal) ℓ) (ρ : Dev nD → PrngReg)

/-! ## The arrays the grid reads, from the arguments -/

theorem V_v0 (c : Dev nD) : (V m c main_v0 : S32768x1024.Idx → Elt Ideal .f32)
    = shapeCast S32768x1024 (m ((c.tc : Thread nD τ).loc main_arg0) : S4096x8x1024.Idx → Elt Ideal .f32) shapeCasts_S4096x8x1024_S32768x1024 := by
  show StableHlo.after hostOps0 (fun b => m (c, b)) (Proc.devRef .tc main_v0) = _
  after_results
  rfl
theorem V_v1 (c : Dev nD) : (V m c main_v1 : S1x1024.Idx → Elt Ideal .f32)
    = shapeCast S1x1024 (m ((c.tc : Thread nD τ).loc main_arg1) : S1024.Idx → Elt Ideal .f32) shapeCasts_S1024_S1x1024 := by
  show StableHlo.after hostOps0 (fun b => m (c, b)) (Proc.devRef .tc main_v1) = _
  after_results
  rfl
theorem V_v2 (c : Dev nD) : (V m c main_v2 : S1x1024.Idx → Elt Ideal .f32)
    = shapeCast S1x1024 (m ((c.tc : Thread nD τ).loc main_arg2) : S1024.Idx → Elt Ideal .f32) shapeCasts_S1024_S1x1024 := by
  show StableHlo.after hostOps0 (fun b => m (c, b)) (Proc.devRef .tc main_v2) = _
  after_results
  rfl
theorem V_v3 (c : Dev nD) : (V m c main_v3 : S1024x1024.Idx → Elt Ideal .bf16)
    = (truncf (F := Ideal) .bf16 (m ((c.tc : Thread nD τ).loc main_arg3) : FVec Ideal S1024x1024 .f32) bitsLt_bf16_f32 :
        FVec Ideal S1024x1024 .bf16) := by
  show StableHlo.after hostOps0 (fun b => m (c, b)) (Proc.devRef .tc main_v3) = _
  after_results

/-- Row `8 s + b` of the flat array is row `(s, b)` of the first argument. -/
theorem row2_V (c : Dev nD) (s : Fin 4096) (b : Fin 8) (r : Fin 32768) (hr : r.val = s.val * 8 + b.val) :
    row2 (V m c main_v0) r = row3 (m ((c.tc : Thread nD τ).loc main_arg0)) s b := by
  funext k
  show (V m c main_v0 : S32768x1024.Idx → Elt Ideal .f32) (ix2 r k) = _
  rw [V_v0]
  exact shapeCast_abc_dc_apply _ _ r k s b hr
/-- The gain's one row is the gain. -/
theorem row1_V1 (c : Dev nD) : row1 (V m c main_v1) = vec1 (m ((c.tc : Thread nD τ).loc main_arg1)) := by
  funext k
  show (V m c main_v1 : S1x1024.Idx → Elt Ideal .f32) (ix2 (0 : Fin 1) k) = _
  rw [V_v1]
  exact shapeCast_a_1a_apply _ _ 0 k
/-- The offset's one row is the offset. -/
theorem row1_V2 (c : Dev nD) : row1 (V m c main_v2) = vec1 (m ((c.tc : Thread nD τ).loc main_arg2)) := by
  funext k
  show (V m c main_v2 : S1x1024.Idx → Elt Ideal .f32) (ix2 (0 : Fin 1) k) = _
  rw [V_v2]
  exact shapeCast_a_1a_apply _ _ 0 k
/-- The matrix in the narrower format is the matrix. -/
theorem mat2_V3 (c : Dev nD) : mat2 (V m c main_v3) = mat2 (m ((c.tc : Thread nD τ).loc main_arg3)) := by
  funext h f
  show (V m c main_v3 : S1024x1024.Idx → Elt Ideal .bf16) (ix2 h f) = _
  rw [V_v3]
  rfl

/-- The flat normalised rows at `(8 s + b, h)` are the normalised rows of the first argument at `(s, b, h)`. -/
theorem lnFlat_at (c : Dev nD) (s : Fin 4096) (b : Fin 8) (h : Fin 1024) (r : Fin 32768) (hr : r.val = s.val * 8 + b.val) :
    lnFlat (V m c main_v0) (V m c main_v1) (V m c main_v2) (ix2 r h)
      = lnArr (m ((c.tc : Thread nD τ).loc main_arg0)) (m ((c.tc : Thread nD τ).loc main_arg1)) (m ((c.tc : Thread nD τ).loc main_arg2)) (ix3 s b h) := by
  show normalised (row2 (V m c main_v0) r) (row1 (V m c main_v1)) (row1 (V m c main_v2)) h = _
  rw [row2_V m c s b r hr, row1_V1, row1_V2]
  rfl
/-- The flat projected rows likewise. -/
theorem outFlat_at (c : Dev nD) (s : Fin 4096) (b : Fin 8) (f : Fin 1024) (r : Fin 32768) (hr : r.val = s.val * 8 + b.val) :
    outFlat (V m c main_v0) (V m c main_v1) (V m c main_v2) (V m c main_v3) (ix2 r f)
      = outArr (m ((c.tc : Thread nD τ).loc main_arg0)) (m ((c.tc : Thread nD τ).loc main_arg1)) (m ((c.tc : Thread nD τ).loc main_arg2))
          (m ((c.tc : Thread nD τ).loc main_arg3)) (ix3 s b f) := by
  show projected (row2 (V m c main_v0) r) (row1 (V m c main_v1)) (row1 (V m c main_v2)) (mat2 (V m c main_v3)) f = _
  rw [row2_V m c s b r hr, row1_V1, row1_V2, mat2_V3]
  rfl

/-! ## The two results after the trailing regrouping -/

/-- The flat normalised rows' array as the lines after the grid find it. -/
theorem arr5 (c : Dev nD) :
    Pipeline.withArrays (cfgs 0).spec c (V0 m c) (fun w => (dats m 0 c).arrAt w (cfgs 0).N) (Proc.devRef .tc main_v4_1)
      = lnFlat (V m c main_v0) (V m c main_v1) (V m c main_v2) :=
  (Pipeline.withArrays_arr spec0 launch0.win.arr_inj c _ _ 5).trans (final5 m c)
/-- The flat projected rows' array as the lines after the grid find it. -/
theorem arr4 (c : Dev nD) :
    Pipeline.withArrays (cfgs 0).spec c (V0 m c) (fun w => (dats m 0 c).arrAt w (cfgs 0).N) (Proc.devRef .tc main_v4_0)
      = outFlat (V m c main_v0) (V m c main_v1) (V m c main_v2) (V m c main_v3) :=
  (Pipeline.withArrays_arr spec0 launch0.win.arr_inj c _ _ 4).trans (final4 m c)

/-- THE SECOND RESULT: every row of the first argument normalised. -/
theorem tail_v6 (c : Dev nD) : Pipeline.afterTail₀ cfgs (dats m) 0 (V0 m) [hostOps1] c main_v6
    = lnArr (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v6) = _
  after_results
  funext i
  obtain ⟨s, b, h, rfl⟩ : ∃ (s : Fin 4096) (b : Fin 8) (h : Fin 1024), i = ix3 s b h := ⟨i 0, i 1, i 2, eq_ix3 i⟩
  have hr : s.val * 8 + b.val < 32768 := by have := s.isLt; have := b.isLt; omega
  refine (shapeCast_dc_abc_apply _ shapeCasts_S32768x1024_S4096x8x1024 s b h ⟨s.val * 8 + b.val, hr⟩ rfl).trans ?_
  rw [arr5]
  exact lnFlat_at m c s b h _ rfl

/-- THE FIRST RESULT: every normalised row times the matrix. -/
theorem tail_v5 (c : Dev nD) : Pipeline.afterTail₀ cfgs (dats m) 0 (V0 m) [hostOps1] c main_v5
    = outArr (m ((c.tc : Thread nD τ).loc main_arg0)) (m ((c.tc : Thread nD τ).loc main_arg1)) (m ((c.tc : Thread nD τ).loc main_arg2))
        (m ((c.tc : Thread nD τ).loc main_arg3)) := by
  unfold Pipeline.afterTail₀
  show StableHlo.after hostOps1 _ (Proc.devRef .tc main_v5) = _
  after_results
  funext i
  obtain ⟨s, b, f, rfl⟩ : ∃ (s : Fin 4096) (b : Fin 8) (f : Fin 1024), i = ix3 s b f := ⟨i 0, i 1, i 2, eq_ix3 i⟩
  have hr : s.val * 8 + b.val < 32768 := by have := s.isLt; have := b.isLt; omega
  refine (shapeCast_dc_abc_apply _ shapeCasts_S32768x1024_S4096x8x1024 s b f ⟨s.val * 8 + b.val, hr⟩ rfl).trans ?_
  rw [arr4]
  exact outFlat_at m c s b f _ rfl

/-! ## The run -/

/-- Every weakly fair execution of the kernel program terminates with the two results at the row specification of the
    arguments, and the arguments unchanged. -/
theorem run : θ_run defs (onTc (τ := τ) (main (F := Ideal))) ⟨m, fun _ => 0, ρ⟩ fun r => ∀ c : Dev nD,
      r.2.mem ((c.tc : Thread nD τ).loc main_v5)
        = outArr (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v6)
        = lnArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (tail_v5 m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefRows.lean ====
/-
  The reference's two results are the row specification over the `[4096, 8, 1024]` array.

  Read one operation at a time, the reference sums each row `(s, b)` of its first argument along the last axis (from an
  initial zero), divides by 1024, subtracts that mean from the row, squares, sums and divides again, adds the stabiliser,
  takes the reciprocal square root, multiplies the centred row by it, by the gain and adds the offset (the gain and the
  offset, vectors of 1024 entries, are read at the last coordinate); the second result contracts the last axis of that with
  the first axis of the matrix. Each reduced or repeated operand is read at an index that keeps `(s, b)` and replaces the
  last coordinate by the summation variable or by zero, so every stage at `(s, b, h)` is a function of row `(s, b)` alone.
-/
import proofs.«131173_j1563368095882_2_alg».proof.Proof.Gen.ReferenceIdeal.Read
import proofs.«131173_j1563368095882_2_alg».proof.Proof.RowSpec
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx Cert.RowSpec

/-! ## The operands' indices, by coordinates -/

theorem idx_v0 (s : Fin 4096) (b : Fin 8) (u : Fin 1) (k : Fin 1024) : idx_main_v0 (idx_main_v1 (ix3 s b u)) k = ix3 s b k :=
  funext fun a => Fin.ext (by match a with | ⟨0, _⟩ => rfl | ⟨1, _⟩ => rfl | ⟨2, _⟩ => rfl)
theorem idx_v7 (s : Fin 4096) (b : Fin 8) (u : Fin 1) (k : Fin 1024) : idx_main_v7 (idx_main_v8 (ix3 s b u)) k = ix3 s b k :=
  funext fun a => Fin.ext (by match a with | ⟨0, _⟩ => rfl | ⟨1, _⟩ => rfl | ⟨2, _⟩ => rfl)
theorem idx_v4 (s : Fin 4096) (b : Fin 8) (h : Fin 1024) : idx_main_v4 (ix3 s b h) = ix3 s b (0 : Fin 1) :=
  funext fun a => Fin.ext (by match a with | ⟨0, _⟩ => rfl | ⟨1, _⟩ => rfl | ⟨2, _⟩ => rfl)
theorem idx_v11 (s : Fin 4096) (b : Fin 8) (h : Fin 1024) : idx_main_v11 (ix3 s b h) = ix3 s b (0 : Fin 1) :=
  funext fun a => Fin.ext (by match a with | ⟨0, _⟩ => rfl | ⟨1, _⟩ => rfl | ⟨2, _⟩ => rfl)
theorem idx_v16 (s : Fin 4096) (b : Fin 8) (h : Fin 1024) : idx_main_v16 (ix3 s b h) = ix3 s b (0 : Fin 1) :=
  funext fun a => Fin.ext (by match a with | ⟨0, _⟩ => rfl | ⟨1, _⟩ => rfl | ⟨2, _⟩ => rfl)
theorem idx_v19 (s : Fin 4096) (b : Fin 8) (h : Fin 1024) : idx_main_v18 (idx_main_v19 (ix3 s b h)) = ix1 h :=
  funext fun a => Fin.ext (by match a with | ⟨0, _⟩ => rfl)
theorem idx_v22 (s : Fin 4096) (b : Fin 8) (h : Fin 1024) : idx_main_v21 (idx_main_v22 (ix3 s b h)) = ix1 h :=
  funext fun a => Fin.ext (by match a with | ⟨0, _⟩ => rfl)
theorem idx_l24 (s : Fin 4096) (b : Fin 8) (f k : Fin 1024) : lidx_main_v24 (ix3 s b f) k = ix3 s b k :=
  funext fun a => Fin.ext (by match a with | ⟨0, _⟩ => rfl | ⟨1, _⟩ => rfl | ⟨2, _⟩ => rfl)
theorem idx_r24 (s : Fin 4096) (b : Fin 8) (f k : Fin 1024) : ridx_main_v24 (ix3 s b f) k = ix2 k f :=
  funext fun a => Fin.ext (by match a with | ⟨0, _⟩ => rfl | ⟨1, _⟩ => rfl)

/-! ## The stages, row by row -/

variable (x : (⟨S4096x8x1024, .f32⟩ : BufTy).Contents (Elt Ideal))

/-- The quotient of the row sum by the row length, kept at `(s, b, 0)`, is the mean of row `(s, b)`. -/
theorem mean_eq (s : Fin 4096) (b : Fin 8) (u : Fin 1) : val_main_v3 (F := Ideal) x (ix3 s b u) = mean (row3 x s b) := by
  rw [val_main_v3_apply, val_main_v1_apply, val_main_v0_apply, val_main_v2_apply]
  show Ideal.div (Ideal.ofBits .f32 0x00000000#32 + ∑ k : Fin 1024, x (idx_main_v0 (idx_main_v1 (ix3 s b u)) k)) len
    = Ideal.div (∑ k : Fin 1024, x (ix3 s b k)) len
  rw [Ideal.ofBits_zero_f32, zero_add]
  exact congrArg (fun z => Ideal.div z len) (Finset.sum_congr rfl fun k _ => congrArg x (idx_v0 s b u k))

/-- The argument less the repeated means, at `(s, b, h)`: the centred entry `h` of row `(s, b)` (the stage that is squared). -/
theorem centred5_eq (s : Fin 4096) (b : Fin 8) (h : Fin 1024) : val_main_v5 (F := Ideal) x (ix3 s b h) = centred (row3 x s b) h := by
  rw [val_main_v5_apply, val_main_v4_apply, idx_v4, mean_eq]
  rfl
/-- The same difference taken a second time (the stage that is scaled). -/
theorem centred12_eq (s : Fin 4096) (b : Fin 8) (h : Fin 1024) : val_main_v12 (F := Ideal) x (ix3 s b h) = centred (row3 x s b) h := by
  rw [val_main_v12_apply, val_main_v11_apply, idx_v11, mean_eq]
  rfl

/-- The reciprocal root of the stabilised quotient of the squares' sum, at `(s, b, 0)`: row `(s, b)`'s reciprocal deviation. -/
theorem rstd_eq (s : Fin 4096) (b : Fin 8) (u : Fin 1) : val_main_v15 (F := Ideal) x (ix3 s b u) = rstd (row3 x s b) := by
  rw [val_main_v15_apply, val_main_v14_apply, val_main_v10_apply, val_main_v8_apply, val_main_v7_apply, val_main_v9_apply,
    val_main_v13_apply]
  show Ideal.rsqrt (Ideal.div (Ideal.ofBits .f32 0x00000000#32
      + ∑ k : Fin 1024, val_main_v6 (F := Ideal) x (idx_main_v7 (idx_main_v8 (ix3 s b u)) k)) len + eps) = _
  rw [Ideal.ofBits_zero_f32, zero_add]
  refine congrArg (fun z => Ideal.rsqrt (Ideal.div z len + eps)) (Finset.sum_congr rfl fun k _ => ?_)
  rw [idx_v7, val_main_v6_apply, centred5_eq]
  rfl

variable (γ β : (⟨S1024, .f32⟩ : BufTy).Contents (Elt Ideal))

/-- THE SECOND RESULT: every row normalised. -/
theorem ln_eq : val_main_v23 (F := Ideal) x γ β = lnArr x γ β := by
  funext i
  obtain ⟨s, b, h, rfl⟩ : ∃ (s : Fin 4096) (b : Fin 8) (h : Fin 1024), i = ix3 s b h := ⟨i 0, i 1, i 2, eq_ix3 i⟩
  rw [val_main_v23_apply, val_main_v20_apply, val_main_v17_apply, val_main_v16_apply, val_main_v19_apply, val_main_v18_apply,
    val_main_v22_apply, val_main_v21_apply, idx_v16, idx_v19, idx_v22, centred12_eq, rstd_eq]
  rfl

/-- THE FIRST RESULT: every normalised row times the matrix. -/
theorem out_eq (K : (⟨S1024x1024, .f32⟩ : BufTy).Contents (Elt Ideal)) : val_main_v24 (F := Ideal) x γ β K = outArr x γ β K := by
  funext i
  obtain ⟨s, b, f, rfl⟩ : ∃ (s : Fin 4096) (b : Fin 8) (f : Fin 1024), i = ix3 s b f := ⟨i 0, i 1, i 2, eq_ix3 i⟩
  rw [val_main_v24_apply, ln_eq]
  show ∑ k : Fin 1024, lnArr x γ β (lidx_main_v24 (ix3 s b f) k) * K (ridx_main_v24 (ix3 s b f) k)
    = ∑ h : Fin 1024, normalised (row3 x s b) (vec1 γ) (vec1 β) h * K (ix2 h f)
  refine Finset.sum_congr rfl fun k _ => ?_
  rw [idx_l24, idx_r24]
  rfl

end Cert.ReferenceIdeal.Rows

end
-- ==== Proof.lean ====
/- Layer normalisation over the last axis of a [4096, 8, 1024] array followed by a dense projection with a 1024 × 1024 matrix,
   computed by a kernel over 32 blocks of 1024 flattened rows, against the same two formulas written with whole-array
   operations; both return the projected rows and the normalised rows.

   On the extended reals the two programs compute one function, row by row. For a row ρ: the mean μ = (Σ ρ) / 1024, the
   variance σ² = (Σ (ρ − μ)²) / 1024, the normalised row ((ρ − μ) · (σ² + ε)^(−1/2)) · γ + β, and its product with the
   matrix, f ↦ Σ_h (normalised h) · K h f (Proof/RowSpec.lean). Both programs divide by the same float 1024.0, add the same
   float ε, group the three products and the sum in the same order, and contract the same axis; the kernel's change of
   float format before its product is the identity on the extended reals, and its product accumulates from zero. So no
   algebraic law beyond re-indexing a finite sum is used, and finiteness of the inputs is never needed.

   The kernel side (Proof/BodyRows.lean: the body's two stores at a block entry; Proof/KernelArrays.lean: block `t` is rows
   1024 t … 1024 t + 1023, the blocks cover the flat arrays; Proof/KernelRun.lean: flat row 8 s + b is row (s, b), before
   and after the grid) and the reference side (Proof/RefRows.lean: each whole-array stage read at (s, b, h)) meet at the
   row specification. The frames of the two kernel programs are the generated ones; the reference's frame is its generated
   run with the results dropped; the idealisation rewrote no operation, so there is nothing to preserve. -/
import proofs.«131173_j1563368095882_2_alg».proof.Defs
import proofs.«131173_j1563368095882_2_alg».proof.Proof.Gen.Kernel
import proofs.«131173_j1563368095882_2_alg».proof.Proof.Gen.Kernel.Skeleton
import proofs.«131173_j1563368095882_2_alg».proof.Proof.Gen.Kernel.Launch
import proofs.«131173_j1563368095882_2_alg».proof.Proof.Gen.Kernel.Points
import proofs.«131173_j1563368095882_2_alg».proof.Proof.Gen.Kernel.Frame
import proofs.«131173_j1563368095882_2_alg».proof.Proof.Gen.KernelIdeal
import proofs.«131173_j1563368095882_2_alg».proof.Proof.Gen.KernelIdeal.Skeleton
import proofs.«131173_j1563368095882_2_alg».proof.Proof.Gen.KernelIdeal.Launch
import proofs.«131173_j1563368095882_2_alg».proof.Proof.Gen.KernelIdeal.Points
import proofs.«131173_j1563368095882_2_alg».proof.Proof.Gen.KernelIdeal.Frame
import proofs.«131173_j1563368095882_2_alg».proof.Proof.Gen.ReferenceIdeal
import proofs.«131173_j1563368095882_2_alg».proof.Proof.Gen.ReferenceIdeal.Run
import proofs.«131173_j1563368095882_2_alg».proof.Proof.Gen.ReferenceIdeal.Read
import proofs.«131173_j1563368095882_2_alg».proof.Proof.Gen.Pre_finite_inputs
import proofs.«131173_j1563368095882_2_alg».proof.Proof.KernelRun
import proofs.«131173_j1563368095882_2_alg».proof.Proof.RefRows
import Idealize.ShloMosaic.Adequacy
import Idealize.ShloMosaic.Init

noncomputable section

namespace Cert.Proof

open Idealize.ShloMosaic Idealize.SL.Sem

/-- The kernel program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel was read on the extended reals. -/
theorem preserves : Cert.preserves_Kernel_KernelIdeal := trivial

/-- From memories that agree on the four arguments, the kernel's two results and the reference's are the projected and the
    normalised rows of the same arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v24_eq _ _ _ _).trans ?_
    rw [Cert.ReferenceIdeal.Rows.out_eq, (hagree c).1, (hagree c).2.1, (hagree c).2.2.1, (hagree c).2.2.2]
  · refine (Cert.ReferenceIdeal.Read.val_main_v23_eq _ _ _).trans ?_
    rw [Cert.ReferenceIdeal.Rows.ln_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
